-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S50x128 : Shape := ⟨2, ![50, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S50x128 : S_.BroadcastsInDim S50x128 (![] : Fin 0 → Fin S50x128.rank)
  reducesTo_S50x128_S_d0_1 : S50x128.ReducesTo [0, 1] S_

variable [Facts]

def fn_part1 {F : FTy → Type} [FloatOps F] (main_arg4 : FVec F S50x128 .f32) (main_arg5 : FVec F S50x128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S50x128 .f32 := Host.absf main_arg4
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S50x128 .f32 := Host.absf main_arg5
  let main_cst_8 : FVec F S_ .f32 := constant S_ .f32 0x7F800000#32
  let main_v25 : FVec F S50x128 .f32 := broadcastInDim S50x128 ![] bcast_S_S50x128 main_cst_8
  let main_v26 : IVec S50x128 1 := cmpf .olt main_v24 main_v25
  let main_c_9 : IVec S_ 1 := constantI S_ 1 1#1
  let main_v27 : IVec S_ 1 := (fun x v => Host.reduce IntOp.andi x v reducesTo_S50x128_S_d0_1 h_S_) main_v26 main_c_9
  let main_v28 : IVec S_ 1 := andi main_v23 main_v27
  main_v28

def fn {F : FTy → Type} [FloatOps F] (main_arg0 : FVec F S1000000x128 .f32) (main_arg1 : FVec F S1000000 .f32) (main_arg2 : FVec F S50x128 .f32) (main_arg3 : FVec F S50x128 .f32) (main_arg4 : FVec F S50x128 .f32) (main_arg5 : FVec F S50x128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S50x128 .f32 := Host.absf main_arg2
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S50x128 .f32 := Host.absf main_arg3
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg4 main_arg5 main_v13 main_v16
-- ==== Kernel.lean ====
abbrev S1000000x128 : Shape := ⟨2, ![1000000, 128]⟩
abbrev S1000000 : Shape := ⟨1, ![1000000]⟩
abbrev S50x128 : Shape := ⟨2, ![50, 128]⟩
abbrev S_ : Shape := ⟨0, ![]⟩
abbrev S1000000x1 : Shape := ⟨2, ![1000000, 1]⟩
abbrev S5000x128 : Shape := ⟨2, ![5000, 128]⟩
abbrev S5000x1 : Shape := ⟨2, ![5000, 1]⟩
abbrev S5000x50 : Shape := ⟨2, ![5000, 50]⟩

abbrev nBuf : Space → Nat
  | .hbm => 51
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S50x128, .f32⟩
  | .hbm, ⟨3, _⟩ => ⟨S50x128, .f32⟩
  | .hbm, ⟨4, _⟩ => ⟨S50x128, .f32⟩
  | .hbm, ⟨5, _⟩ => ⟨S50x128, .f32⟩
  | .hbm, ⟨6, _⟩ => ⟨S_, .f32⟩
  | .hbm, ⟨7, _⟩ => ⟨S50x128, .f32⟩
  | .hbm, ⟨8, _⟩ => ⟨S50x128, .f32⟩
  | .hbm, ⟨9, _⟩ => ⟨S_, .f32⟩
  | .hbm, ⟨10, _⟩ => ⟨S50x128, .f32⟩
  | .hbm, ⟨11, _⟩ => ⟨S50x128, .f32⟩
  | .hbm, ⟨12, _⟩ => ⟨S_, .f32⟩
  | .hbm, ⟨13, _⟩ => ⟨S50x128, .f32⟩
  | .hbm, ⟨14, _⟩ => ⟨S50x128, .f32⟩
  | .hbm, ⟨15, _⟩ => ⟨S50x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S50x128, .f32⟩
  | .hbm, ⟨20, _⟩ => ⟨S50x128, .f32⟩
  | .hbm, ⟨21, _⟩ => ⟨S_, .f32⟩
  | .hbm, ⟨22, _⟩ => ⟨S50x128, .f32⟩
  | .hbm, ⟨23, _⟩ => ⟨S50x128, .f32⟩
  | .hbm, ⟨24, _⟩ => ⟨S_, .f32⟩
  | .hbm, ⟨25, _⟩ => ⟨S50x128, .f32⟩
  | .hbm, ⟨26, _⟩ => ⟨S50x128, .i1⟩
  | .hbm, ⟨27, _⟩ => ⟨S50x128, .f32⟩
  | .hbm, ⟨28, _⟩ => ⟨S_, .f32⟩
  | .hbm, ⟨29, _⟩ => ⟨S_, .f32⟩
  | .hbm, ⟨30, _⟩ => ⟨S50x128, .f32⟩
  | .hbm, ⟨31, _⟩ => ⟨S50x128, .f32⟩
  | .hbm, ⟨32, _⟩ => ⟨S_, .f32⟩
  | .hbm, ⟨33, _⟩ => ⟨S50x128, .f32⟩
  | .hbm, ⟨34, _⟩ => ⟨S50x128, .i1⟩
  | .hbm, ⟨35, _⟩ => ⟨S50x128, .f32⟩
  | .hbm, ⟨36, _⟩ => ⟨S50x128, .f32⟩
  | .hbm, ⟨37, _⟩ => ⟨S_, .f32⟩
  | .hbm, ⟨38, _⟩ => ⟨S_, .f32⟩
  | .hbm, ⟨39, _⟩ => ⟨S50x128, .f32⟩
  | .hbm, ⟨40, _⟩ => ⟨S50x128, .f32⟩
  | .hbm, ⟨41, _⟩ => ⟨S50x128, .bf16⟩
  | .hbm, ⟨42, _⟩ => ⟨S50x128, .f32⟩
  | .hbm, ⟨43, _⟩ => ⟨S50x128, .f32⟩
  | .hbm, ⟨44, _⟩ => ⟨S50x128, .bf16⟩
  | .hbm, ⟨45, _⟩ => ⟨S50x128, .bf16⟩
  | .hbm, ⟨46, _⟩ => ⟨S50x128, .f32⟩
  | .hbm, ⟨47, _⟩ => ⟨S50x128, .f32⟩
  | .hbm, ⟨48, _⟩ => ⟨S50x128, .bf16⟩
  | .hbm, ⟨49, _⟩ => ⟨S1000000x1, .f32⟩
  | .hbm, ⟨50, _⟩ => ⟨S1000000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S50x128, .bf16⟩
  | .local _ .vmem, ⟨5, _⟩ => ⟨S50x128, .bf16⟩
  | .local _ .vmem, ⟨6, _⟩ => ⟨S50x128, .bf16⟩
  | .local _ .vmem, ⟨7, _⟩ => ⟨S50x128, .bf16⟩
  | .local _ .vmem, ⟨8, _⟩ => ⟨S5000x128, .f32⟩
  | .local _ .vmem, ⟨9, _⟩ => ⟨S5000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_cst_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_cst_6 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_7 : Ref sig .tc := ⟨.hbm, 37, rfl⟩
abbrev main_call2_v0 : Ref sig .tc := ⟨.hbm, 38, rfl⟩
abbrev main_call2_v1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S50x128 : S_.BroadcastsInDim S50x128 (![] : Fin 0 → Fin S50x128.rank)
  bitsLt_bf16_f32 : FTy.bits .bf16 < FTy.bits .f32
  shapeCasts_S1000000_S1000000x1 : S1000000.ShapeCasts S1000000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x50_d1_w32 : S5000x50.Iotas .tc 32 [1]
  broadcasts_S5000x1_S5000x50 : S5000x1.Broadcasts S5000x50
  natLt_1_32 : 1 < 32
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S5000x128_S5000x128_0_0 : ∀ a, (![0, 0] : Fin 2 → Nat) a + S5000x128.size a ≤ S5000x128.size a
  h_S5000x128 : 0 < S5000x128.numel
  dot_S5000x50_S50x128_S5000x128_1_0_0_1_n_n_wf : DotDims.WF S5000x50 S50x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1000000x1.size a
  hwx0_1 : ∀ i : grid0.Coords, EltTy.bits .f32 = 32 ∨ (Rect.block (s := S1000000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .bf16 = 32 ∨ (Rect.block (s := S50x128) S50x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x128.size a ≤ S50x128.size a
  hwx0_3 : ∀ i : grid0.Coords, EltTy.bits .bf16 = 32 ∨ (Rect.block (s := S50x128) S50x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .bf16 = 32 ∨ (Rect.block (s := S50x128) S50x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x128.size a ≤ S50x128.size a
  hwx0_5 : ∀ i : grid0.Coords, EltTy.bits .bf16 = 32 ∨ (Rect.block (s := S50x128) S50x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S1000000x128.size a
  hwx0_6 : ∀ i : grid0.Coords, EltTy.bits .f32 = 32 ∨ (Rect.block (s := S1000000x128) S5000x128.size (cc0_transform_6 i) (hinb0_6 i)).WholeWords (EltTy.packing .f32)

variable [Facts₀]

def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S50x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S50x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S50x128 : Shape := ⟨2, ![50, 128]⟩
abbrev S_ : Shape := ⟨0, ![]⟩
abbrev S1000000x1 : Shape := ⟨2, ![1000000, 1]⟩

abbrev nBuf : Space → Nat
  | .hbm => 91
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S50x128, .f32⟩
  | .hbm, ⟨3, _⟩ => ⟨S50x128, .f32⟩
  | .hbm, ⟨4, _⟩ => ⟨S50x128, .f32⟩
  | .hbm, ⟨5, _⟩ => ⟨S50x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1000000, .f32⟩
  | .hbm, ⟨10, _⟩ => ⟨S1000000, .f32⟩
  | .hbm, ⟨11, _⟩ => ⟨S_, .f32⟩
  | .hbm, ⟨12, _⟩ => ⟨S1000000, .f32⟩
  | .hbm, ⟨13, _⟩ => ⟨S1000000, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S1000000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x128, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x128, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x128, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x128, .f32⟩
  | .hbm, ⟨65, _⟩ => ⟨S_, .f32⟩
  | .hbm, ⟨66, _⟩ => ⟨S1000000x128, .f32⟩
  | .hbm, ⟨67, _⟩ => ⟨S1000000x128, .f32⟩
  | .hbm, ⟨68, _⟩ => ⟨S_, .f32⟩
  | .hbm, ⟨69, _⟩ => ⟨S1000000x128, .f32⟩
  | .hbm, ⟨70, _⟩ => ⟨S1000000x128, .f32⟩
  | .hbm, ⟨71, _⟩ => ⟨S_, .f32⟩
  | .hbm, ⟨72, _⟩ => ⟨S1000000x128, .f32⟩
  | .hbm, ⟨73, _⟩ => ⟨S1000000x128, .f32⟩
  | .hbm, ⟨74, _⟩ => ⟨S1000000x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1000000x128, .f32⟩
  | .hbm, ⟨79, _⟩ => ⟨S1000000x128, .f32⟩
  | .hbm, ⟨80, _⟩ => ⟨S_, .f32⟩
  | .hbm, ⟨81, _⟩ => ⟨S1000000x128, .f32⟩
  | .hbm, ⟨82, _⟩ => ⟨S1000000x128, .f32⟩
  | .hbm, ⟨83, _⟩ => ⟨S1000000x128, .f32⟩
  | .hbm, ⟨84, _⟩ => ⟨S1000000x128, .f32⟩
  | .hbm, ⟨85, _⟩ => ⟨S1000000x128, .f32⟩
  | .hbm, ⟨86, _⟩ => ⟨S1000000x128, .f32⟩
  | .hbm, ⟨87, _⟩ => ⟨S_, .f32⟩
  | .hbm, ⟨88, _⟩ => ⟨S1000000x128, .f32⟩
  | .hbm, ⟨89, _⟩ => ⟨S1000000x128, .i1⟩
  | .hbm, ⟨90, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v4 : Ref sig .tc := ⟨.hbm, 25, rfl⟩
abbrev main_c_3 : Ref sig .tc := ⟨.hbm, 26, rfl⟩
abbrev main_v5 : Ref sig .tc := ⟨.hbm, 27, rfl⟩
abbrev main_v6 : Ref sig .tc := ⟨.hbm, 28, rfl⟩
abbrev main_c_4 : Ref sig .tc := ⟨.hbm, 29, rfl⟩
abbrev main_v7 : Ref sig .tc := ⟨.hbm, 30, rfl⟩
abbrev main_v8 : Ref sig .tc := ⟨.hbm, 31, rfl⟩
abbrev main_c_5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_6 : Ref sig .tc := ⟨.hbm, 38, rfl⟩
abbrev main_v14 : Ref sig .tc := ⟨.hbm, 39, rfl⟩
abbrev main_v15 : Ref sig .tc := ⟨.hbm, 40, rfl⟩
abbrev main_c_7 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_8 : Ref sig .tc := ⟨.hbm, 47, rfl⟩
abbrev main_v21 : Ref sig .tc := ⟨.hbm, 48, rfl⟩
abbrev main_v22 : Ref sig .tc := ⟨.hbm, 49, rfl⟩
abbrev main_c_9 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_10 : Ref sig .tc := ⟨.hbm, 56, rfl⟩
abbrev main_v28 : Ref sig .tc := ⟨.hbm, 57, rfl⟩
abbrev main_v29 : Ref sig .tc := ⟨.hbm, 58, rfl⟩
abbrev main_c_11 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_cst_14 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_15 : Ref sig .tc := ⟨.hbm, 75, rfl⟩
abbrev main_cst_16 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_17 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  gather_S50x128_S1000000x1_S1000000x128_1_0_n_n_0_1_1128_wf : GatherDims.WF S50x128 S1000000x1 S1000000x128 [1] [0] [] [0] [] 1 ![1, 128]

variable [Facts₀]

def gather_S50x128_S1000000x1_S1000000x128_1_0_n_n_0_1_1128 : GatherDims S50x128 S1000000x1 S1000000x128 where
  offsetDims := [1]
  collapsedSliceDims := [0]
  operandBatchingDims := []
  startIndicesBatchingDims := []
  startIndexMap := [0]
  indexVectorDim := 1
  sliceSizes := ![1, 128]
  wf := gather_S50x128_S1000000x1_S1000000x128_1_0_n_n_0_1_1128_wf

class Facts : Prop extends Facts₀ where

variable [Facts]
-- ==== Proof.LibFiniteWord.lean ====
/-
  Float words that denote real numbers.  At the ideal values a float word is read as the extended real its
  IEEE pattern denotes.  Only an all-ones exponent field denotes an infinity (or a not-a-number pattern); every
  other word — a zero, a subnormal, a normal — denotes a real number, a dyadic rational, and when its sign bit is
  clear that real is not negative.  So a literal of a program is a real as soon as its exponent field is seen not
  to be all ones, which is decided on the literal word without computing the value.
-/
import Idealize.ShloMosaic.PureOps.Ideal

noncomputable section

namespace Idealize.ShloMosaic.FiniteWord

open Idealize.ShloMosaic

/-- A word with `e` exponent and `m` significand bits whose exponent field is not all ones and whose sign bit is
    clear denotes a real number that is not negative. -/
theorem ieee_nonneg_real (e m : Nat) {w : Nat} (b : BitVec w)
    (hex : (b.extractLsb' m e).toNat ≠ 2 ^ e - 1) (hs : (b.extractLsb' (e + m) 1 == 1#1) = false) :
    ∃ r : ℝ, 0 ≤ r ∧ Ideal.ieee e m b = (r : EReal) := by
  unfold Ideal.ieee
  simp only [hs, if_neg hex, Bool.false_eq_true, if_false]
  split
  · exact ⟨_, by positivity, rfl⟩
  · exact ⟨_, by positivity, rfl⟩

/-- A word whose exponent field is not all ones denotes a real number, whatever its sign. -/
theorem ieee_real (e m : Nat) {w : Nat} (b : BitVec w) (hex : (b.extractLsb' m e).toNat ≠ 2 ^ e - 1) :
    ∃ r : ℝ, Ideal.ieee e m b = (r : EReal) := by
  unfold Ideal.ieee
  simp only [if_neg hex]
  split
  · exact ⟨_, rfl⟩
  · exact ⟨_, rfl⟩

/-- The single-precision case: exponent field bits 23–30 not all ones, sign bit 31 clear. -/
theorem f32_nonneg_real (b : BitVec 32) (hex : (b.extractLsb' 23 8).toNat ≠ 2 ^ 8 - 1)
    (hs : (b.extractLsb' (8 + 23) 1 == 1#1) = false) : ∃ r : ℝ, 0 ≤ r ∧ Ideal.ofBits .f32 b = (r : EReal) :=
  ieee_nonneg_real 8 23 b hex hs

/-- The single-precision case, any sign. -/
theorem f32_real (b : BitVec 32) (hex : (b.extractLsb' 23 8).toNat ≠ 2 ^ 8 - 1) :
    ∃ r : ℝ, Ideal.ofBits .f32 b = (r : EReal) :=
  ieee_real 8 23 b hex

end Idealize.ShloMosaic.FiniteWord

end
-- ==== Proof.LibOneHot.lean ====
/-
  Selecting a table row by a one-hot product.  A row index is computed as a 32-bit word clamped, as a signed
  number, into [0, hi]; comparing it with the lane number 0, 1, …, n − 1 gives a row of zeros with a single one
  (when hi < n), and the product of that row with a table is the table's row at the index: every other term of
  the sum is zero times an entry, which is zero on the extended reals whatever the entry.  The facts here: the
  clamped word lies in [0, hi]; a lane number equals such a word exactly when it is the word's value; the 0/1
  comparison bit, widened and converted to a float at the ideal values, is the extended real 1 or 0; a sum
  against an indicator picks one term.
-/
import Idealize.ShloMosaic.PureOps.Ideal

noncomputable section

namespace Idealize.ShloMosaic.OneHot

open Idealize.ShloMosaic
open scoped BigOperators

/-- A signed clamp of any word into [0, hi] (hi not negative) lies in [0, hi]. -/
theorem clamp_range (hi z : BitVec 32) (hhi : 0 ≤ hi.toInt) :
    0 ≤ (IntOp.minsi hi (IntOp.maxsi 0#32 z)).toInt ∧ (IntOp.minsi hi (IntOp.maxsi 0#32 z)).toInt ≤ hi.toInt := by
  have e0 : (0#32 : BitVec 32).toInt = 0 := by decide
  unfold IntOp.minsi IntOp.maxsi
  by_cases h1 : z.slt 0#32 = true
  · rw [if_pos h1]
    by_cases h2 : hi.slt 0#32 = true
    · rw [if_pos h2]; exact ⟨hhi, le_refl _⟩
    · rw [if_neg h2, e0]; exact ⟨le_refl _, hhi⟩
  · rw [if_neg h1]
    have h1' : 0 ≤ z.toInt := by
      have : ¬ z.toInt < (0#32 : BitVec 32).toInt := by simpa [BitVec.slt] using h1
      omega
    by_cases h2 : hi.slt z = true
    · rw [if_pos h2]; exact ⟨hhi, le_refl _⟩
    · rw [if_neg h2]
      have : ¬ hi.toInt < z.toInt := by simpa [BitVec.slt] using h2
      exact ⟨h1', by omega⟩

/-- A word whose signed value is not negative has that value as its unsigned value. -/
theorem toInt_eq_toNat_of_nonneg (w : BitVec 32) (h0 : 0 ≤ w.toInt) : w.toInt = (w.toNat : Int) := by
  have hc := BitVec.toInt_eq_toNat_cond w
  have hlt := w.isLt
  split at hc
  · exact hc
  · omega

/-- A lane number below n ≤ 2^31 equals a word of signed value in [0, n − 1] exactly when it is the word's value
    (written as the signed value clamped into [0, n − 1], the row a gather would read). -/
theorem ofNat_beq (n : Nat) (hn : n ≤ 2 ^ 31) (k : Fin n) (w : BitVec 32) (h0 : 0 ≤ w.toInt) (h1 : w.toInt ≤ (n : Int) - 1) :
    (BitVec.ofNat 32 k.val == w) = decide (k.val = min w.toInt.toNat (n - 1)) := by
  have hw := toInt_eq_toNat_of_nonneg w h0
  have hk := k.isLt
  have hmin : min w.toInt.toNat (n - 1) = w.toNat := by omega
  rw [hmin, Bool.eq_iff_iff]
  simp only [beq_iff_eq, decide_eq_true_eq]
  constructor
  · intro h
    have := congrArg BitVec.toNat h
    rw [BitVec.toNat_ofNat, Nat.mod_eq_of_lt (by omega)] at this
    exact this
  · intro h
    apply BitVec.eq_of_toNat_eq
    rw [BitVec.toNat_ofNat, Nat.mod_eq_of_lt (by omega)]
    exact h

/-- The comparison bit widened to 32 bits and converted signed to a float, at the ideal values: 1 or 0. -/
theorem sitofp_setWidth_ofBool (φ : FTy) (c : Bool) :
    FloatOps.sitofp (F := Ideal) φ ((BitVec.ofBool c).setWidth 32) = if c = true then (1 : EReal) else 0 := by
  cases c
  · show (((((BitVec.ofBool false).setWidth 32).toInt : Int) : ℝ) : EReal) = _
    have : ((BitVec.ofBool false).setWidth 32).toInt = 0 := by decide
    rw [this]; simp
  · show (((((BitVec.ofBool true).setWidth 32).toInt : Int) : ℝ) : EReal) = _
    have : ((BitVec.ofBool true).setWidth 32).toInt = 1 := by decide
    rw [this]; simp

/-- A sum against the indicator of one index is the term at that index, on the extended reals (zero times
    anything is zero there). -/
theorem sum_indicator_mul {n : Nat} (k0 : Fin n) (f : Fin n → EReal) :
    ∑ k : Fin n, (if k = k0 then (1 : EReal) else 0) * f k = f k0 := by
  rw [Finset.sum_eq_single k0]
  · rw [if_pos rfl, one_mul]
  · intro b _ hb; rw [if_neg hb, zero_mul]
  · intro h; exact absurd (Finset.mem_univ _) h

end Idealize.ShloMosaic.OneHot

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.Calib.lean ====
/-
  The calibration as mathematics, with no program in sight.

  A label l picks a bucket: clip l into [0, 1], multiply by 50, round toward zero to a 32-bit integer, clamp it
  (signed) into [0, 49].  Per bucket b and feature column j there are four statistics μ1, a (a variance), μ2 and
  b' (a variance).  With a⁺ = max a 0, the factor is f = min 10 (max 0.1 (max b' 0 / max a⁺ 1e-12)) and the
  calibrated feature is (x − μ1) · √f + μ2 where a⁺ > 0, and x itself where not.

  The same value can be reached by folding the statistics into a scale s = √f (1 where a⁺ ≤ 0) and a shift
  t = μ2 − μ1 · s (0 where a⁺ ≤ 0) and computing x · (s + (s − s)) + (t + (t − t)): the two extra summands are the
  residues of splitting s and t into a rounded high part and a remainder, and vanish when nothing rounds.  The two
  agree whenever x, μ1 and μ2 are real numbers: f lies between two literal reals that are not negative, so √f is a real,
  and then the identity is x·s + (μ2 − μ1·s) = (x − μ1)·s + μ2 over the reals (it fails at infinite x or μ1, where
  the extended reals do not distribute).  The variances may be any extended reals.
-/
import proofs.«104433_j88038239634077_2_alg».proof.Proof.LibFiniteWord
import proofs.«104433_j88038239634077_2_alg».proof.Proof.LibOneHot
import proofs.«104433_j88038239634077_2_alg».proof.Proof.LibRowGather
import Idealize.ShloMosaic.Lib.ValueIdx

noncomputable section

namespace Cert.Calib

open Idealize.ShloMosaic Idealize.ShloMosaic.ValueIdx

/-! ## The literals -/

/-- 0.0 -/
abbrev zeroW : EReal := Ideal.ofBits .f32 0x00000000#32
/-- 1.0 -/
abbrev oneW : EReal := Ideal.ofBits .f32 0x3F800000#32
/-- 50.0, the number of buckets -/
abbrev fiftyW : EReal := Ideal.ofBits .f32 0x42480000#32
/-- the single-precision word nearest 1e-12 -/
abbrev epsW : EReal := Ideal.ofBits .f32 0x2B8CBCCC#32
/-- the single-precision word nearest 0.1 -/
abbrev tenthW : EReal := Ideal.ofBits .f32 0x3DCCCCCD#32
/-- 10.0 -/
abbrev tenW : EReal := Ideal.ofBits .f32 0x41200000#32

theorem zeroW_eq : zeroW = 0 := by simp [zeroW, Ideal.ofBits, Ideal.ieee]

theorem oneW_eq : oneW = 1 := by simp [oneW, Ideal.ofBits, Ideal.ieee, -EReal.coe_mul]; norm_num

/-! ## The bucket of a label -/

/-- The bucket of a label as a 32-bit word: clip to [0, 1], times 50, toward zero, clamped signed into [0, 49]. -/
def bucketWord (l : EReal) : BitVec 32 :=
  IntOp.minsi 49#32 (IntOp.maxsi 0#32 (Ideal.fptosi 32 (min oneW (max zeroW l) * fiftyW)))

/-- The bucket as a row of a 50-row table: the word read signed and clamped into [0, 49] (it is in range already). -/
def bucket (l : EReal) : Fin 50 := RowGather.clampRow 50 (by decide) (bucketWord l)

theorem bucketWord_range (l : EReal) : 0 ≤ (bucketWord l).toInt ∧ (bucketWord l).toInt ≤ 49 := by
  have h := OneHot.clamp_range 49#32 (Ideal.fptosi 32 (min oneW (max zeroW l) * fiftyW)) (by decide)
  have e : (49#32 : BitVec 32).toInt = 49 := by decide
  rw [e] at h
  exact h

/-- Lane k of a row of 50 lanes equals the bucket word exactly when k is the bucket. -/
theorem lane_beq_bucketWord (l : EReal) (k : Fin 50) :
    (BitVec.ofNat 32 k.val == bucketWord l) = decide (k = bucket l) := by
  have hr := bucketWord_range l
  rw [OneHot.ofNat_beq 50 (by norm_num) k (bucketWord l) hr.1 (by omega)]
  unfold bucket RowGather.clampRow
  simp only [Fin.ext_iff]

/-- A bucket word is not negative, so the wrap of negative indices (add 50 when below zero) leaves it alone. -/
theorem wrap_bucketWord (l : EReal) :
    Scalar.select (IntOp.cmpi .slt (IntOp.subi (bucketWord l) 0#32) 0#32)
      (IntOp.addi (IntOp.subi (bucketWord l) 0#32) 50#32) (IntOp.subi (bucketWord l) 0#32) = bucketWord l := by
  have hr := bucketWord_range l
  have hsub : IntOp.subi (bucketWord l) 0#32 = bucketWord l := by unfold IntOp.subi; exact BitVec.sub_zero _
  rw [hsub]
  have hlt : (bucketWord l).slt 0#32 = false := by
    have e0 : (0#32 : BitVec 32).toInt = 0 := by decide
    simp only [BitVec.slt, e0, decide_eq_false_iff_not, not_lt]
    exact hr.1
  have hc : IntOp.cmpi .slt (bucketWord l) 0#32 = 0#1 := by
    unfold IntOp.cmpi
    simp only [hlt]
    rfl
  rw [hc, select_zero]

/-! ## The per-entry calibration -/

/-- The clipped variance ratio. -/
def factor (a b : EReal) : EReal := min tenW (max tenthW (Ideal.div (max b zeroW) (max (max a zeroW) epsW)))

/-- Whether the first variance, floored at zero, is positive. -/
def posBit (a : EReal) : BitVec 1 := Ideal.cmp .ogt (max a zeroW) zeroW

/-- The folded scale: √factor where the variance is positive, 1 elsewhere. -/
def scale (a b : EReal) : EReal := Scalar.select (posBit a) (Ideal.sqrt (factor a b)) oneW

/-- The folded shift: μ2 − μ1 · scale where the variance is positive, 0 elsewhere. -/
def shift (μ1 a μ2 b : EReal) : EReal := Scalar.select (posBit a) (μ2 - μ1 * scale a b) zeroW

/-- The calibrated feature. -/
def out (x μ1 a μ2 b : EReal) : EReal := Scalar.select (posBit a) ((x - μ1) * Ideal.sqrt (factor a b) + μ2) x

/-- The factor lies between two literal reals that are not negative, so its square root is a real number. -/
theorem sqrt_factor_real (a b : EReal) : ∃ s : ℝ, Ideal.sqrt (factor a b) = (s : EReal) := by
  obtain ⟨t, ht0, ht⟩ := FiniteWord.f32_nonneg_real 0x41200000#32 (by decide) (by decide)
  obtain ⟨u, hu0, hu⟩ := FiniteWord.f32_nonneg_real 0x3DCCCCCD#32 (by decide) (by decide)
  unfold factor
  rw [show tenW = (t : EReal) from ht, show tenthW = (u : EReal) from hu]
  generalize Ideal.div (max b zeroW) (max (max a zeroW) epsW) = q
  have h1 : min (t : EReal) (max (u : EReal) q) ≤ (t : EReal) := min_le_left _ _
  have h2 : ((min t u : ℝ) : EReal) ≤ min (t : EReal) (max (u : EReal) q) := by
    refine le_min ?_ ?_
    · exact EReal.coe_le_coe_iff.mpr (min_le_left _ _)
    · exact le_trans (EReal.coe_le_coe_iff.mpr (min_le_right _ _)) (le_max_left _ _)
  have hne_top : min (t : EReal) (max (u : EReal) q) ≠ ⊤ := ne_top_of_le_ne_top (EReal.coe_ne_top t) h1
  have hne_bot : min (t : EReal) (max (u : EReal) q) ≠ ⊥ := ne_bot_of_le_ne_bot (EReal.coe_ne_bot _) h2
  obtain ⟨y, hy⟩ : ∃ y : ℝ, min (t : EReal) (max (u : EReal) q) = (y : EReal) :=
    ⟨_, (EReal.coe_toReal hne_top hne_bot).symm⟩
  rw [hy] at h2 ⊢
  have hy0 : 0 ≤ y := le_trans (le_min ht0 hu0) (EReal.coe_le_coe_iff.mp h2)
  rw [Ideal.sqrt_coe, if_neg (not_lt.mpr hy0)]
  exact ⟨_, rfl⟩

/-- THE LAW that joins the two sides: at real x, μ1, μ2 the folded form, residues included, is the calibrated
    feature. -/
theorem folded_eq_out (x μ1 a μ2 b : EReal) (hx : ∃ r : ℝ, x = (r : EReal)) (h1 : ∃ r : ℝ, μ1 = (r : EReal))
    (h2 : ∃ r : ℝ, μ2 = (r : EReal)) :
    x * (scale a b + (scale a b - scale a b)) + (shift μ1 a μ2 b + (shift μ1 a μ2 b - shift μ1 a μ2 b))
      = out x μ1 a μ2 b := by
  obtain ⟨x', rfl⟩ := hx
  obtain ⟨m1', rfl⟩ := h1
  obtain ⟨m2', rfl⟩ := h2
  obtain ⟨s, hs⟩ := sqrt_factor_real a b
  unfold shift out scale
  by_cases hc : posBit a = 1#1
  · simp only [hc, select_one, hs]
    exact_mod_cast congrArg (fun r : ℝ => (r : EReal)) (by ring : x' * (s + (s - s)) + ((m2' - m1' * s) + ((m2' - m1' * s) - (m2' - m1' * s))) = (x' - m1') * s + m2')
  · simp only [eq_zero_of_ne_one hc, select_zero, oneW_eq, zeroW_eq]
    have e1 : (1 : EReal) - 1 = 0 := by rw [← EReal.coe_one, ← EReal.coe_sub, sub_self, EReal.coe_zero]
    have e0 : (0 : EReal) - 0 = 0 := by rw [← EReal.coe_zero, ← EReal.coe_sub, sub_self]
    rw [e1, e0, add_zero, add_zero, mul_one, add_zero]

/-! ## The whole array -/

/-- The calibrated features as ONE function of the six arrays: entry (p, j) uses the statistics of the bucket of
    label p at column j. -/
def G (feat : (⟨2, ![1000000, 128]⟩ : Shape).Idx → EReal) (lab : (⟨1, ![1000000]⟩ : Shape).Idx → EReal)
    (m1 v1 m2 v2 : (⟨2, ![50, 128]⟩ : Shape).Idx → EReal) : (⟨2, ![1000000, 128]⟩ : Shape).Idx → EReal :=
  fun i =>
    let p : Fin 1000000 := ⟨(i 0).val, idx2_lt0 i⟩
    let q : Fin 128 := ⟨(i 1).val, idx2_lt1 i⟩
    let r : Fin 50 := bucket (lab (ix1 p))
    out (feat i) (m1 (ix2 r q)) (v1 (ix2 r q)) (m2 (ix2 r q)) (v2 (ix2 r q))

theorem G_apply (feat : (⟨2, ![1000000, 128]⟩ : Shape).Idx → EReal) (lab : (⟨1, ![1000000]⟩ : Shape).Idx → EReal)
    (m1 v1 m2 v2 : (⟨2, ![50, 128]⟩ : Shape).Idx → EReal) (p : Fin 1000000) (q : Fin 128) :
    G feat lab m1 v1 m2 v2 (ix2 p q)
      = out (feat (ix2 p q)) (m1 (ix2 (bucket (lab (ix1 p))) q)) (v1 (ix2 (bucket (lab (ix1 p))) q))
          (m2 (ix2 (bucket (lab (ix1 p))) q)) (v2 (ix2 (bucket (lab (ix1 p))) q)) := rfl

end Cert.Calib

end
-- ==== Proof.RefValue.lean ====
/-
  The reference computes the calibrated features.  Read one operation at a time, its label pipeline is the bucket
  word of each label (clip, times 50, toward zero, clamp), wrapped as a possibly negative index (a bucket word is
  never negative, so the wrap does nothing); each of its four gathers reads a statistics table at the row of that
  word and the entry's column; the rest is the calibration formula entry by entry.
-/
import proofs.«104433_j88038239634077_2_alg».proof.Proof.Gen.ReferenceIdeal.Read
import proofs.«104433_j88038239634077_2_alg».proof.Proof.Calib

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Calib

variable (x1 : (⟨S1000000, .f32⟩ : BufTy).Contents (Elt Ideal))

/-- The clamped integer bucket of label p, before the wrap: the bucket word minus zero. -/
theorem v6_apply (p : Fin 1000000) :
    val_main_v6 (F := Ideal) x1 (ix1 p) = IntOp.subi (bucketWord (x1 (ix1 p))) 0#32 := by
  simp only [val_main_v6_apply, val_main_v5_apply, val_main_c_3_apply, val_main_v4_apply, val_main_call1_v4_apply,
    val_main_call1_v3_apply, val_main_c_2_apply, val_main_call1_v2_apply, val_main_call1_v1_apply, val_main_call1_v0_apply,
    val_main_c_apply, val_main_v3_apply, val_main_v2_apply, val_main_v1_apply, val_main_cst_1_apply, val_main_v0_apply,
    val_main_call0_v4_apply, val_main_call0_v3_apply, val_main_cst_0_apply, val_main_call0_v2_apply,
    val_main_call0_v1_apply, val_main_call0_v0_apply, val_main_cst_apply]
  rfl

/-- The four wrapped copies of the index are the bucket word. -/
theorem v11_apply (p : Fin 1000000) : val_main_v11 (F := Ideal) x1 (ix1 p) = bucketWord (x1 (ix1 p)) := by
  simp only [val_main_v11_apply, val_main_v8_apply, val_main_v10_apply, val_main_v7_apply, val_main_c_4_apply,
    val_main_v9_apply, val_main_c_5_apply, v6_apply]
  exact wrap_bucketWord _

theorem v18_apply (p : Fin 1000000) : val_main_v18 (F := Ideal) x1 (ix1 p) = bucketWord (x1 (ix1 p)) := by
  simp only [val_main_v18_apply, val_main_v15_apply, val_main_v17_apply, val_main_v14_apply, val_main_c_6_apply,
    val_main_v16_apply, val_main_c_7_apply, v6_apply]
  exact wrap_bucketWord _

theorem v25_apply (p : Fin 1000000) : val_main_v25 (F := Ideal) x1 (ix1 p) = bucketWord (x1 (ix1 p)) := by
  simp only [val_main_v25_apply, val_main_v22_apply, val_main_v24_apply, val_main_v21_apply, val_main_c_8_apply,
    val_main_v23_apply, val_main_c_9_apply, v6_apply]
  exact wrap_bucketWord _

theorem v32_apply (p : Fin 1000000) : val_main_v32 (F := Ideal) x1 (ix1 p) = bucketWord (x1 (ix1 p)) := by
  simp only [val_main_v32_apply, val_main_v29_apply, val_main_v31_apply, val_main_v28_apply, val_main_c_10_apply,
    val_main_v30_apply, val_main_c_11_apply, v6_apply]
  exact wrap_bucketWord _

/-- The index column [1000000, 1] at (p, 0) is the index vector at p (one statement per copy of the column). -/
theorem idx_col_v12 (p : Fin 1000000) : idx_main_v12 (ix2 p (0 : Fin 1)) = ix1 p :=
  funext fun a => match a with | ⟨0, _⟩ => rfl
theorem idx_col_v19 (p : Fin 1000000) : idx_main_v19 (ix2 p (0 : Fin 1)) = ix1 p :=
  funext fun a => match a with | ⟨0, _⟩ => rfl
theorem idx_col_v26 (p : Fin 1000000) : idx_main_v26 (ix2 p (0 : Fin 1)) = ix1 p :=
  funext fun a => match a with | ⟨0, _⟩ => rfl
theorem idx_col_v33 (p : Fin 1000000) : idx_main_v33 (ix2 p (0 : Fin 1)) = ix1 p :=
  funext fun a => match a with | ⟨0, _⟩ => rfl

/-- A row gather of a statistics table at the label buckets, read at (p, q): the table at the bucket of label p,
    column q. -/
theorem gather_bucket (tbl : (⟨S50x128, .f32⟩ : BufTy).Contents (Elt Ideal)) (idx : IVec S1000000x1 32)
    (p : Fin 1000000) (q : Fin 128) (h : idx (ix2 p (0 : Fin 1)) = bucketWord (x1 (ix1 p))) :
    Host.gather gather_S50x128_S1000000x1_S1000000x128_1_0_n_n_0_1_1128 tbl idx (ix2 p q)
      = tbl (ix2 (bucket (x1 (ix1 p))) q) := by
  show Host.gather (RowGather.rowDims 50 1000000 128 gather_S50x128_S1000000x1_S1000000x128_1_0_n_n_0_1_1128_wf) tbl idx (ix2 p q) = _
  rw [RowGather.gather_rows_apply (by decide) gather_S50x128_S1000000x1_S1000000x128_1_0_n_n_0_1_1128_wf tbl idx p q, h]
  rfl

theorem v13_apply (x2 : (⟨S50x128, .f32⟩ : BufTy).Contents (Elt Ideal)) (p : Fin 1000000) (q : Fin 128) :
    val_main_v13 (F := Ideal) x1 x2 (ix2 p q) = x2 (ix2 (bucket (x1 (ix1 p))) q) := by
  unfold val_main_v13
  exact gather_bucket x1 x2 (val_main_v12 (F := Ideal) x1) p q (by rw [val_main_v12_apply, idx_col_v12]; exact v11_apply x1 p)

theorem v20_apply (x3 : (⟨S50x128, .f32⟩ : BufTy).Contents (Elt Ideal)) (p : Fin 1000000) (q : Fin 128) :
    val_main_v20 (F := Ideal) x1 x3 (ix2 p q) = x3 (ix2 (bucket (x1 (ix1 p))) q) := by
  unfold val_main_v20
  exact gather_bucket x1 x3 (val_main_v19 (F := Ideal) x1) p q (by rw [val_main_v19_apply, idx_col_v19]; exact v18_apply x1 p)

theorem v27_apply (x4 : (⟨S50x128, .f32⟩ : BufTy).Contents (Elt Ideal)) (p : Fin 1000000) (q : Fin 128) :
    val_main_v27 (F := Ideal) x1 x4 (ix2 p q) = x4 (ix2 (bucket (x1 (ix1 p))) q) := by
  unfold val_main_v27
  exact gather_bucket x1 x4 (val_main_v26 (F := Ideal) x1) p q (by rw [val_main_v26_apply, idx_col_v26]; exact v25_apply x1 p)

theorem v34_apply (x5 : (⟨S50x128, .f32⟩ : BufTy).Contents (Elt Ideal)) (p : Fin 1000000) (q : Fin 128) :
    val_main_v34 (F := Ideal) x1 x5 (ix2 p q) = x5 (ix2 (bucket (x1 (ix1 p))) q) := by
  unfold val_main_v34
  exact gather_bucket x1 x5 (val_main_v33 (F := Ideal) x1) p q (by rw [val_main_v33_apply, idx_col_v33]; exact v32_apply x1 p)

/-- THE REFERENCE IS THE CALIBRATION: its result, as a function of the six argument arrays, is `G`. -/
theorem result_eq (x0 : (⟨S1000000x128, .f32⟩ : BufTy).Contents (Elt Ideal))
    (x2 x3 x4 x5 : (⟨S50x128, .f32⟩ : BufTy).Contents (Elt Ideal)) :
    val_main_v49 (F := Ideal) x0 x1 x2 x3 x4 x5 = G x0 x1 x2 x3 x4 x5 := by
  funext i
  obtain ⟨p, q, rfl⟩ : ∃ (p : Fin 1000000) (q : Fin 128), i = ix2 p q := ⟨i 0, i 1, eq_ix2 i⟩
  rw [G_apply]
  simp only [val_main_v49_apply, val_main_v48_apply, val_main_v47_apply, val_main_cst_17_apply, val_main_v46_apply,
    val_main_v45_apply, val_main_v44_apply, val_main_v43_apply, val_main_v42_apply, val_main_call2_v4_apply,
    val_main_call2_v3_apply, val_main_cst_16_apply, val_main_call2_v2_apply, val_main_call2_v1_apply,
    val_main_call2_v0_apply, val_main_cst_15_apply, val_main_v41_apply, val_main_v40_apply, val_main_v39_apply,
    val_main_cst_14_apply, val_main_v38_apply, val_main_v37_apply, val_main_cst_13_apply, val_main_v36_apply,
    val_main_v35_apply, val_main_cst_12_apply, v13_apply, v20_apply, v27_apply, v34_apply]
  rfl

end Cert.ReferenceIdeal.RefValue

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.KernelBody.lean ====
/-
  The kernel body at one entry.  From a block of 5000 labels the body builds a 5000 × 50 selector: lane k of row p
  is 1 when k is the bucket of label p and 0 otherwise.  Its product with a 50 × 128 table therefore reads, at
  (p, q), the table's row at the bucket of label p, column q — all other terms are zero times an entry.  The body
  does this with four tables (a high and a low part of the scale, a high and a low part of the shift), adds high
  and low, and stores feature · scale + shift.
-/
import proofs.«104433_j88038239634077_2_alg».proof.Proof.Gen.KernelIdeal.Skeleton
import proofs.«104433_j88038239634077_2_alg».proof.Proof.Calib
import proofs.«104433_j88038239634077_2_alg».proof.Proof.LibPlainDot
import proofs.«104433_j88038239634077_2_alg».proof.Proof.LibColumns
import Idealize.ShloMosaic.Lib.Pipeline.Value

noncomputable section

namespace Cert.KernelIdeal.Body

open Cert.KernelIdeal Cert.KernelIdeal.Gen
open Idealize.ShloMosaic Idealize.ShloMosaic.ValueIdx Cert.Calib

/-- The selector the body builds from a block of labels. -/
def selector (lab : Vec Ideal S5000x1 .f32) : FVec Ideal S5000x50 .bf16 :=
  truncf .bf16 (sitofp .f32 (extui 32 (cmpi .eq (iota .tc S5000x50 32 [1] iota_S5000x50_d1_w32)
    (broadcastTo S5000x50 (minsi (broadcast S5000x1 49#32) (maxsi (broadcast S5000x1 0#32)
      (fptosi 32 (mulf (minimumf (broadcast S5000x1 (Scalar.ofBits (F := Ideal) .f32 0x3F800000#32))
        (maximumf (broadcast S5000x1 (Scalar.ofBits (F := Ideal) .f32 0x00000000#32)) (shapeCast S5000x1 lab shapeCasts_S5000x1_S5000x1)))
        (broadcast S5000x1 (Scalar.ofBits (F := Ideal) .f32 0x42480000#32))))))
      broadcasts_S5000x1_S5000x50)) natLt_1_32)) bitsLt_bf16_f32

/-- Lane k of row p of the selector: 1 at the bucket of label p, 0 elsewhere. -/
theorem selector_apply (lab : Vec Ideal S5000x1 .f32) (p : Fin 5000) (k : Fin 50) :
    selector lab (ix2 p k) = if k = bucket (lab (ix2 p (0 : Fin 1))) then (1 : EReal) else 0 := by
  unfold selector
  rw [shapeCast_self]
  show FloatOps.sitofp (F := Ideal) .f32 ((IntOp.cmpi .eq (iota .tc S5000x50 32 [1] iota_S5000x50_d1_w32 (ix2 p k))
    (broadcastTo S5000x50 _ broadcasts_S5000x1_S5000x50 (ix2 p k))).setWidth 32) = _
  rw [iota_single_apply, Cert.Columns.broadcastTo_a1_ab_apply _ _ p k (0 : Fin 1)]
  show FloatOps.sitofp (F := Ideal) .f32 ((BitVec.ofBool (BitVec.ofNat 32 k.val == bucketWord (lab (ix2 p (0 : Fin 1))))).setWidth 32) = _
  rw [OneHot.sitofp_setWidth_ofBool, lane_beq_bucketWord]
  simp only [decide_eq_true_eq]

/-- The selector times a table, read at (p, q): the table's row at the bucket of label p. -/
theorem select_row (lab : Vec Ideal S5000x1 .f32) (tbl : Vec Ideal S50x128 .bf16) (p : Fin 5000) (q : Fin 128) :
    matmul dot_S5000x50_S50x128_S5000x128_1_0_0_1_n_n none (selector lab) (shapeCast S50x128 tbl shapeCasts_S50x128_S50x128 : FVec Ideal S50x128 .bf16)
      (constant (F := Ideal) S5000x128 .f32 0x00000000#32) (ix2 p q) = tbl (ix2 (bucket (lab (ix2 p (0 : Fin 1)))) q) := by
  rw [shapeCast_self]
  show matmul (DotDims.plain 5000 50 128) none (selector lab) (tbl : FVec Ideal ⟨2, ![50, 128]⟩ .bf16) (constant (F := Ideal) ⟨2, ![5000, 128]⟩ .f32 0x00000000#32) (ix2 p q) = _
  rw [Cert.Lib.PlainDot.matmul_plain_zero_apply]
  simp only [selector_apply]
  exact OneHot.sum_indicator_mul (bucket (lab (ix2 p (0 : Fin 1)))) (fun k => tbl (ix2 k q))

/-- THE BODY AT AN ENTRY: feature · (scale high + scale low) + (shift high + shift low), each table read at the
    bucket of the row's label. -/
theorem pay_apply (lab : Vec Ideal S5000x1 .f32) (shi slo thi tlo : Vec Ideal S50x128 .bf16) (feat : Vec Ideal S5000x128 .f32)
    (p : Fin 5000) (q : Fin 128) :
    k0_pay1 (F := Ideal) lab shi slo thi tlo feat (ix2 p q)
      = feat (ix2 p q) * (shi (ix2 (bucket (lab (ix2 p (0 : Fin 1)))) q) + slo (ix2 (bucket (lab (ix2 p (0 : Fin 1)))) q))
        + (thi (ix2 (bucket (lab (ix2 p (0 : Fin 1)))) q) + tlo (ix2 (bucket (lab (ix2 p (0 : Fin 1)))) q)) := by
  rw [← select_row lab shi p q, ← select_row lab slo p q, ← select_row lab thi p q, ← select_row lab tlo p q]
  rfl

end Cert.KernelIdeal.Body

end
-- ==== Proof.KernelTables.lean ====
/-
  The arrays the kernel's region finds.  Before the region the program folds the four statistics tables, entry by
  entry, into a scale and a shift, and splits each into a high part (the value rounded to a shorter float format)
  and a low part (the value minus its rounded self, rounded again).  At the ideal values a change of format is the
  identity, so the high part is the value and the low part is the value minus itself.  The labels are handed to the
  region as a column [1000000, 1]; entry (p, 0) is label p.
-/
import proofs.«104433_j88038239634077_2_alg».proof.Proof.Gen.KernelIdeal.Frame
import proofs.«104433_j88038239634077_2_alg».proof.Proof.Calib
import proofs.«104433_j88038239634077_2_alg».proof.Proof.LibColumns
import Idealize.ShloMosaic.Lib.StableHlo.Run

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx Cert.Calib

variable (m : (ℓ : Loc nD τ sig) → Buf (Elt Ideal) ℓ) (c : Dev nD)

/-- The labels, the means and variances as launched. -/
abbrev labels : S1000000.Idx → EReal := m ((c : Thread nD τ).loc main_arg1)
abbrev mean1 : S50x128.Idx → EReal := m ((c : Thread nD τ).loc main_arg2)
abbrev var1 : S50x128.Idx → EReal := m ((c : Thread nD τ).loc main_arg3)
abbrev mean2 : S50x128.Idx → EReal := m ((c : Thread nD τ).loc main_arg4)
abbrev var2 : S50x128.Idx → EReal := m ((c : Thread nD τ).loc main_arg5)

set_option maxHeartbeats 4000000 in
/-- The high part of the scale is the scale. -/
theorem scale_hi : (V m c main_v17 : S50x128.Idx → EReal) = fun i => scale (var1 m c i) (var2 m c i) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The low part of the scale is the scale minus itself. -/
theorem scale_lo : (V m c main_v20 : S50x128.Idx → EReal)
    = fun i => scale (var1 m c i) (var2 m c i) - scale (var1 m c i) (var2 m c i) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The high part of the shift is the shift. -/
theorem shift_hi : (V m c main_v21 : S50x128.Idx → EReal)
    = fun i => shift (mean1 m c i) (var1 m c i) (mean2 m c i) (var2 m c i) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The low part of the shift is the shift minus itself. -/
theorem shift_lo : (V m c main_v24 : S50x128.Idx → EReal)
    = fun i => shift (mean1 m c i) (var1 m c i) (mean2 m c i) (var2 m c i)
        - shift (mean1 m c i) (var1 m c i) (mean2 m c i) (var2 m c i) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The label column is the label vector reshaped. -/
theorem label_column : (V m c main_v25 : S1000000x1.Idx → EReal)
    = shapeCast S1000000x1 (labels m c) shapeCasts_S1000000_S1000000x1 := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

/-- Entry (p, 0) of the label column is label p. -/
theorem label_column_apply (p : Fin 1000000) :
    (V m c main_v25 : S1000000x1.Idx → EReal) (ix2 p (0 : Fin 1)) = labels m c (ix1 p) := by
  rw [label_column]
  exact Cert.Columns.shapeCast_a_a1_apply (labels m c) shapeCasts_S1000000_S1000000x1 p 0

end Cert.KernelIdeal.Tables

end
-- ==== Proof.Finite.lean ====
/-
  What the precondition gives.  The precondition says of each of the six input arrays that every entry's absolute
  value is below +∞; the six facts are conjoined bit by bit.  Taken apart again, each says that no entry is an
  infinity: an entry whose absolute value max x (−x) is below +∞ is neither +∞ nor −∞, so it is a real number.  The
  calibration law needs this of the features and of the two tables of means.
-/
import proofs.«104433_j88038239634077_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- An extended real whose absolute value compares below the +∞ word is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by
      unfold Ideal.cmp
      simp only [hn, decide_false]
      rfl
    rw [h0] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- Under the precondition the features and the two tables of means hold real numbers only. -/
theorem reals_of_pre (a0 : FVec Ideal S1000000x128 .f32) (a1 : FVec Ideal S1000000 .f32)
    (a2 a3 a4 a5 : FVec Ideal S50x128 .f32) (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a4 i = (r : EReal)) := by
  have h0 := congrFun h ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨hA0, hA1⟩ := IntOp.andi_eq_one.1 h01
  refine ⟨fun i => ?_, fun i => ?_, fun i => ?_⟩
  · exact real_of_abs_lt_inf (a0 i) (Host.reduce_andi_all _ _ _ _ ix0 hA0 i)
  · exact real_of_abs_lt_inf (a2 i) (Host.reduce_andi_all _ _ _ _ ix0 h2 i)
  · exact real_of_abs_lt_inf (a4 i) (Host.reduce_andi_all _ _ _ _ ix0 h4 i)

end Cert.Pre_finite_inputs.Finite

end
-- ==== Proof.KernelValue.lean ====
/-
  From blocks to the whole array.  The grid has 200 points; point t handles rows 5000 t … 5000 t + 4999: it reads
  that block of the features and of the label column and the four whole tables, and writes that block of the result.
  So what point t writes back is block t of one whole-array function (the folded form: feature · (scale high +
  scale low) + (shift high + shift low), the tables read at the bucket of the row's label), the 200 blocks cover
  the array (row r lies in block r / 5000), and the array ends holding that function.  With the tables read as the
  folded statistics and the inputs real numbers, the folded form is the calibration itself.
-/
import proofs.«104433_j88038239634077_2_alg».proof.Defs
import proofs.«104433_j88038239634077_2_alg».proof.Proof.Gen.KernelIdeal.Value
import proofs.«104433_j88038239634077_2_alg».proof.Proof.KernelBody
import proofs.«104433_j88038239634077_2_alg».proof.Proof.KernelTables
import proofs.«104433_j88038239634077_2_alg».proof.Proof.Finite
import Idealize.ShloMosaic.Lib.Pipeline.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.Calib

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the features, the label column and the result move one block of rows per
    point; the four tables stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_points (t : Fin cfg0.N) : t.val < 200 := by
  have h : t.val < cfg0.N := t.isLt
  have e : cfg0.N = 200 := N_0
  omega

/-- Row p of block t is row 5000 t + p of the array. -/
def row (t : Fin cfg0.N) (p : Fin 5000) : Fin 1000000 :=
  ⟨t.val * 5000 + p.val, by have := lt_points t; have := p.isLt; omega⟩

/-- The folded form as ONE function of the arrays the region finds. -/
def folded (feat : S1000000x128.Idx → EReal) (lab2 : S1000000x1.Idx → EReal) (shi slo thi tlo : S50x128.Idx → EReal) :
    S1000000x128.Idx → EReal := fun i =>
  let p : Fin 1000000 := ⟨(i 0).val, idx2_lt0 i⟩
  let q : Fin 128 := ⟨(i 1).val, idx2_lt1 i⟩
  let r : Fin 50 := bucket (lab2 (ix2 p (0 : Fin 1)))
  feat i * (shi (ix2 r q) + slo (ix2 r q)) + (thi (ix2 r q) + tlo (ix2 r q))

theorem folded_apply (feat : S1000000x128.Idx → EReal) (lab2 : S1000000x1.Idx → EReal) (shi slo thi tlo : S50x128.Idx → EReal)
    (P : Fin 1000000) (q : Fin 128) :
    folded feat lab2 shi slo thi tlo (ix2 P q)
      = feat (ix2 P q) * (shi (ix2 (bucket (lab2 (ix2 P (0 : Fin 1)))) q) + slo (ix2 (bucket (lab2 (ix2 P (0 : Fin 1)))) q))
        + (thi (ix2 (bucket (lab2 (ix2 P (0 : Fin 1)))) q) + tlo (ix2 (bucket (lab2 (ix2 P (0 : Fin 1)))) q)) := rfl

/-! ## The input blocks as rows of their arrays -/

theorem blk_feat (c : Dev nD) (t : Fin cfg0.N) (p : Fin 5000) (q : Fin 128) :
    (iblk m c 0 t : Vec Ideal S5000x128 .f32) (ix2 p q) = (V m c main_arg0 : S1000000x128.Idx → EReal) (ix2 (row t p) q) := by
  obtain ⟨e0, e1, -⟩ := idx_facts t
  unfold iblk
  show (V m c main_arg0 : S1000000x128.Idx → EReal) (((cfg0.win 0).blk t).view.emb (ix2 p q)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * q.val = q.val; rw [e1]; omega

theorem blk_label (c : Dev nD) (t : Fin cfg0.N) (p : Fin 5000) :
    (iblk m c 1 t : Vec Ideal S5000x1 .f32) (ix2 p (0 : Fin 1)) = (V m c main_v25 : S1000000x1.Idx → EReal) (ix2 (row t p) (0 : Fin 1)) := by
  obtain ⟨-, -, e0, e1, -⟩ := idx_facts t
  unfold iblk
  show (V m c main_v25 : S1000000x1.Idx → EReal) (((cfg0.win 1).blk t).view.emb (ix2 p (0 : Fin 1))) = _
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

theorem blk_scale_hi (c : Dev nD) (t : Fin cfg0.N) (k : Fin 50) (q : Fin 128) :
    (iblk m c 2 t : Vec Ideal S50x128 .bf16) (ix2 k q) = (V m c main_v17 : S50x128.Idx → EReal) (ix2 k q) := by
  obtain ⟨-, -, -, -, e0, e1, -⟩ := idx_facts t
  unfold iblk
  show (V m c main_v17 : S50x128.Idx → EReal) (((cfg0.win 2).blk t).view.emb (ix2 k q)) = _
  refine congrArg _ (funext fun a => Fin.ext ?_)
  match a with
  | ⟨0, _⟩ => show win0_2.index t (0 : Fin 2) * 50 + 1 * k.val = k.val; rw [e0]; omega
  | ⟨1, _⟩ => show win0_2.index t (1 : Fin 2) * 128 + 1 * q.val = q.val; rw [e1]; omega

theorem blk_scale_lo (c : Dev nD) (t : Fin cfg0.N) (k : Fin 50) (q : Fin 128) :
    (iblk m c 3 t : Vec Ideal S50x128 .bf16) (ix2 k q) = (V m c main_v20 : S50x128.Idx → EReal) (ix2 k q) := by
  obtain ⟨-, -, -, -, -, -, e0, e1, -⟩ := idx_facts t
  unfold iblk
  show (V m c main_v20 : S50x128.Idx → EReal) (((cfg0.win 3).blk t).view.emb (ix2 k q)) = _
  refine congrArg _ (funext fun a => Fin.ext ?_)
  match a with
  | ⟨0, _⟩ => show win0_3.index t (0 : Fin 2) * 50 + 1 * k.val = k.val; rw [e0]; omega
  | ⟨1, _⟩ => show win0_3.index t (1 : Fin 2) * 128 + 1 * q.val = q.val; rw [e1]; omega

theorem blk_shift_hi (c : Dev nD) (t : Fin cfg0.N) (k : Fin 50) (q : Fin 128) :
    (iblk m c 4 t : Vec Ideal S50x128 .bf16) (ix2 k q) = (V m c main_v21 : S50x128.Idx → EReal) (ix2 k q) := by
  obtain ⟨-, -, -, -, -, -, -, -, e0, e1, -⟩ := idx_facts t
  unfold iblk
  show (V m c main_v21 : S50x128.Idx → EReal) (((cfg0.win 4).blk t).view.emb (ix2 k q)) = _
  refine congrArg _ (funext fun a => Fin.ext ?_)
  match a with
  | ⟨0, _⟩ => show win0_4.index t (0 : Fin 2) * 50 + 1 * k.val = k.val; rw [e0]; omega
  | ⟨1, _⟩ => show win0_4.index t (1 : Fin 2) * 128 + 1 * q.val = q.val; rw [e1]; omega

theorem blk_shift_lo (c : Dev nD) (t : Fin cfg0.N) (k : Fin 50) (q : Fin 128) :
    (iblk m c 5 t : Vec Ideal S50x128 .bf16) (ix2 k q) = (V m c main_v24 : S50x128.Idx → EReal) (ix2 k q) := by
  obtain ⟨-, -, -, -, -, -, -, -, -, -, e0, e1, -⟩ := idx_facts t
  unfold iblk
  show (V m c main_v24 : S50x128.Idx → EReal) (((cfg0.win 5).blk t).view.emb (ix2 k q)) = _
  refine congrArg _ (funext fun a => Fin.ext ?_)
  match a with
  | ⟨0, _⟩ => show win0_5.index t (0 : Fin 2) * 50 + 1 * k.val = k.val; rw [e0]; omega
  | ⟨1, _⟩ => show win0_5.index t (1 : Fin 2) * 128 + 1 * q.val = q.val; rw [e1]; omega

/-! ## What a point writes back, the cover, the array -/

/-- WHAT POINT t WRITES BACK is block t of the folded form of the arrays the region finds. -/
theorem flushed_eq (c : Dev nD) (t : Fin cfg0.N) :
    (dats m 0 c).flushed 6 t = ((cfg0.win 6).blk t).view.read (Elt Ideal)
      (folded (V m c main_arg0) (V m c main_v25) (V m c main_v17) (V m c main_v20) (V m c main_v21) (V m c main_v24)) := by
  rw [flushed6]
  show out0_6 (iblk m c 0 t) (iblk m c 1 t) (iblk m c 2 t) (iblk m c 3 t) (iblk m c 4 t) (iblk m c 5 t) = _
  unfold out0_6
  rw [View.canon_unit_zero hz]
  simp only [View.ld_unit_zero (S := S5000x128) hz, View.ld_unit_zero (S := S5000x1) hz, View.ld_unit_zero (S := S50x128) hz]
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  show k0_pay1 (F := Ideal) (iblk m c 1 t) (iblk m c 2 t) (iblk m c 3 t) (iblk m c 4 t) (iblk m c 5 t) (iblk m c 0 t) (ix2 p q)
    = folded (V m c main_arg0) (V m c main_v25) (V m c main_v17) (V m c main_v20) (V m c main_v21) (V m c main_v24)
        (((cfg0.win 6).blk t).view.emb (ix2 p q))
  have hemb : ((cfg0.win 6).blk t).view.emb (ix2 p q) = ix2 (row t p) q := by
    refine funext fun a => Fin.ext ?_
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  rw [hemb, folded_apply]
  refine (Body.pay_apply (iblk m c 1 t) (iblk m c 2 t) (iblk m c 3 t) (iblk m c 4 t) (iblk m c 5 t) (iblk m c 0 t) p q).trans ?_
  rw [blk_label m c t p, blk_feat m c t p q]
  rw [blk_scale_hi m c t, blk_scale_lo m c t, blk_shift_hi m c t, blk_shift_lo m c t]

/-- Every entry of the array is in some point's block: row r in block r / 5000. -/
theorem cover (i : S1000000x128.Idx) :
    ∃ t : Fin cfg0.N, (cfg0.win 6).flush t = true ∧ i ∈ ((cfg0.win 6).blk t).view.set := by
  have hi0 : (i 0).val < 1000000 := (i 0).isLt
  have hi1 : (i 1).val < 128 := (i 1).isLt
  let t : Fin cfg0.N := ⟨(i 0).val / 5000, by have e : cfg0.N = 200 := N_0; omega⟩
  obtain ⟨-, -, -, -, -, -, -, -, -, -, -, -, e0, e1⟩ := idx_facts t
  refine ⟨t, flush0_6 t, ?_⟩
  show i ∈ ((View.whole main_v26).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0]
    show (i 0).val / 5000 * 5000 ≤ (i 0).val ∧ (i 0).val < (i 0).val / 5000 * 5000 + 5000
    omega
  | ⟨1, _⟩ =>
    show win0_6.index t (1 : Fin 2) * 128 ≤ (i 1).val ∧ (i 1).val < win0_6.index t (1 : Fin 2) * 128 + 128
    rw [e1]
    omega

/-- The result array after the run is the folded form of the arrays the region finds. -/
theorem final_folded (c : Dev nD) : (dats m 0 c).arrAt 6 cfg0.N
    = folded (V m c main_arg0) (V m c main_v25) (V m c main_v17) (V m c main_v20) (V m c main_v21) (V m c main_v24) :=
  (dats m 0 c).arrAt_eq_of_cover 6 _ (fun t _ => flushed_eq m c t) cover

/-! ## The folded form is the calibration -/

/-- With the tables read as the folded statistics and the label column as the labels, at real features and means the
    folded form is the calibration `G` of the six argument arrays. -/
theorem folded_eq_G (c : Dev nD)
    (hx : ∀ i, ∃ r : ℝ, (m ((c : Thread nD τ).loc main_arg0) : S1000000x128.Idx → EReal) i = (r : EReal))
    (h1 : ∀ i, ∃ r : ℝ, (m ((c : Thread nD τ).loc main_arg2) : S50x128.Idx → EReal) i = (r : EReal))
    (h2 : ∀ i, ∃ r : ℝ, (m ((c : Thread nD τ).loc main_arg4) : S50x128.Idx → EReal) i = (r : EReal)) :
    folded (V m c main_arg0) (V m c main_v25) (V m c main_v17) (V m c main_v20) (V m c main_v21) (V m c main_v24)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨P, q, rfl⟩ : ∃ (P : Fin 1000000) (q : Fin 128), i = ix2 P q := ⟨i 0, i 1, eq_ix2 i⟩
  rw [folded_apply, G_apply, Tables.label_column_apply m c P, Tables.scale_hi m c, Tables.scale_lo m c, Tables.shift_hi m c,
    Tables.shift_lo m c, V_main_arg0 m c]
  exact folded_eq_out _ _ _ _ _ (hx _) (h1 _) (h2 _)

/-- THE KERNEL'S RUN, READ: under the precondition the result array ends at the calibration of the argument arrays,
    and the arguments end unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v26)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
      obtain ⟨hx, h1, h2⟩ := Cert.Pre_finite_inputs.Finite.reals_of_pre _ _ _ _ _ _ (hpre c)
      exact ⟨(h c).1.trans ((final_folded m c).trans (folded_eq_G m c hx h1 h2)), (h c).2⟩)
    (run_blocks m ρ)

end Cert.KernelIdeal.Whole

end
-- ==== Proof.lean ====
/- Per-bucket feature calibration: a fused kernel against a gather-based reference, equal over the extended reals.

   Each of 1000000 rows has a label; the label's bucket b (clip to [0, 1], times 50, toward zero, clamped into [0, 49])
   selects, for every one of the 128 feature columns j, four statistics μ1, a, μ2, a' from [50, 128] tables.  The
   reference gathers the four rows and computes (x − μ1) · √f + μ2 with f = min 10 (max 0.1 (max a' 0 / max (max a 0) ε)),
   keeping x where max a 0 is not positive.

   The kernel first folds the tables, entry by entry, into a scale s (√f, or 1) and a shift t (μ2 − μ1 · s, or 0), splits
   each into a high and a low part (the low part is the value minus its rounded self: zero when nothing rounds), and then,
   block of 5000 rows by block, selects the rows of the four parts by a 0/1 selector product and stores
   x · (s_hi + s_lo) + (t_hi + t_lo).

   The two agree at every entry when the features and the two tables of means are real numbers, which the precondition
   gives: the selector product reads exactly the bucket's row, √f is a real because f lies between two literal reals,
   and x · s + (μ2 − μ1 · s) = (x − μ1) · s + μ2 over the reals.  The frames are the generated ones; the idealization
   rewrote nothing, so `preserves` is trivial. -/
import proofs.«104433_j88038239634077_2_alg».proof.Defs
import proofs.«104433_j88038239634077_2_alg».proof.Proof.Gen.Kernel
import proofs.«104433_j88038239634077_2_alg».proof.Proof.Gen.Kernel.Skeleton
import proofs.«104433_j88038239634077_2_alg».proof.Proof.Gen.Kernel.Launch
import proofs.«104433_j88038239634077_2_alg».proof.Proof.Gen.Kernel.Points
import proofs.«104433_j88038239634077_2_alg».proof.Proof.Gen.Kernel.Frame
import proofs.«104433_j88038239634077_2_alg».proof.Proof.Gen.KernelIdeal
import proofs.«104433_j88038239634077_2_alg».proof.Proof.Gen.KernelIdeal.Skeleton
import proofs.«104433_j88038239634077_2_alg».proof.Proof.Gen.KernelIdeal.Launch
import proofs.«104433_j88038239634077_2_alg».proof.Proof.Gen.KernelIdeal.Points
import proofs.«104433_j88038239634077_2_alg».proof.Proof.Gen.KernelIdeal.Frame
import proofs.«104433_j88038239634077_2_alg».proof.Proof.Gen.ReferenceIdeal
import proofs.«104433_j88038239634077_2_alg».proof.Proof.Gen.KernelIdeal.Value
import proofs.«104433_j88038239634077_2_alg».proof.Proof.Gen.ReferenceIdeal.Run
import proofs.«104433_j88038239634077_2_alg».proof.Proof.Gen.ReferenceIdeal.Read
import proofs.«104433_j88038239634077_2_alg».proof.Proof.Gen.Pre_finite_inputs
import proofs.«104433_j88038239634077_2_alg».proof.Proof.RefValue
import proofs.«104433_j88038239634077_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the calibration `G` of the (agreeing) argument arrays. -/
theorem algebraic : Cert.algebraic_KernelIdeal_ReferenceIdeal := by
  intro m ρ m' ρ' hpre hagree
  refine ⟨fun c => Cert.Calib.G (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4))
      (m ((c : Thread Cert.KernelIdeal.nD Cert.KernelIdeal.τ).loc Cert.KernelIdeal.main_arg5)), Cert.KernelIdeal.Whole.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
